-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S1 : Shape := ⟨1, ![1]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S262144 32) (main_arg1 : IVec S262144 32) (main_arg2 : FVec F S262144 .f32) (main_arg3 : IVec S262144 32) (main_arg4 : IVec S262144 32) (main_arg5 : FVec F S262144 .f32) (main_arg6 : FVec F S1 .f32) : IVec S_ 1 :=
  let main_v0 : FVec F S262144 .f32 := Host.absf main_arg2
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg5
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S1 .f32 := Host.absf main_arg6
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S262144 : Shape := ⟨1, ![262144]⟩
abbrev S1 : Shape := ⟨1, ![1]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S128x8192 : Shape := ⟨2, ![128, 8192]⟩
abbrev S128 : Shape := ⟨1, ![128]⟩
abbrev S128x1 : Shape := ⟨2, ![128, 1]⟩

abbrev nBuf : Space → Nat
  | .hbm => 59
  | .vmem => 4
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S262144, .i32⟩
  | .hbm, ⟨4, _⟩ => ⟨S262144, .i32⟩
  | .hbm, ⟨5, _⟩ => ⟨S262144, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S262144, .f32⟩
  | .hbm, ⟨15, _⟩ => ⟨S262144, .f32⟩
  | .hbm, ⟨16, _⟩ => ⟨S_, .f32⟩
  | .hbm, ⟨17, _⟩ => ⟨S_, .f32⟩
  | .hbm, ⟨18, _⟩ => ⟨S262144, .f32⟩
  | .hbm, ⟨19, _⟩ => ⟨S262144, .f32⟩
  | .hbm, ⟨20, _⟩ => ⟨S_, .f32⟩
  | .hbm, ⟨21, _⟩ => ⟨S8192x8192, .f32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x1, .i32⟩
  | .hbm, ⟨38, _⟩ => ⟨S262144x2, .i32⟩
  | .hbm, ⟨39, _⟩ => ⟨S8192x8192, .f32⟩
  | .hbm, ⟨40, _⟩ => ⟨S_, .i32⟩
  | .hbm, ⟨41, _⟩ => ⟨S262144, .i32⟩
  | .hbm, ⟨42, _⟩ => ⟨S262144, .i1⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S262144, .i32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x1, .i32⟩
  | .hbm, ⟨56, _⟩ => ⟨S262144x2, .i32⟩
  | .hbm, ⟨57, _⟩ => ⟨S8192x8192, .f32⟩
  | .hbm, ⟨58, _⟩ => ⟨S8192x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1_S_ : S1.ShapeCasts S_
  bcast_S_S262144 : S_.BroadcastsInDim S262144 (![] : Fin 0 → Fin S262144.rank)
  bcast_S_S8192x8192 : S_.BroadcastsInDim S8192x8192 (![] : Fin 0 → Fin S8192x8192.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  broadcasts_S128x1_S128x8192 : S128x1.Broadcasts S128x8192
  scatter_S8192x8192_S262144x2_S262144_n_01_01_1_wf : ScatterDims.WF S8192x8192 S262144x2 S262144 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

abbrev win0_0 : Pipeline.Window sig grid0 :=
  Pipeline.Window.ofSpec (Memref.whole main_v38) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S128x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S262144 : Shape := ⟨1, ![262144]⟩
abbrev S1 : Shape := ⟨1, ![1]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩

abbrev nBuf : Space → Nat
  | .hbm => 72
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S262144, .i32⟩
  | .hbm, ⟨4, _⟩ => ⟨S262144, .i32⟩
  | .hbm, ⟨5, _⟩ => ⟨S262144, .f32⟩
  | .hbm, ⟨6, _⟩ => ⟨S1, .f32⟩
  | .hbm, ⟨7, _⟩ => ⟨S_, .f32⟩
  | .hbm, ⟨8, _⟩ => ⟨S8192x8192, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x1, .i32⟩
  | .hbm, ⟨25, _⟩ => ⟨S262144x2, .i32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144x1, .i32⟩
  | .hbm, ⟨45, _⟩ => ⟨S262144x2, .i32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .i1⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x8192, .f32⟩
  | .hbm, ⟨71, _⟩ => ⟨S8192x8192, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  shapeCasts_S1_S_ : S1.ShapeCasts S_
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  scatter_S8192x8192_S262144x2_S262144_n_01_01_1_wf : ScatterDims.WF S8192x8192 S262144x2 S262144 [] [0, 1] [0, 1] 1

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.RowNormalize.lean ====
/-
  Row normalisation of a matrix: every entry divided by the sum of its row, a row whose sum is exactly zero being
  divided by one instead (a node without edges keeps its all-zero row).

  The divisor of row `p` depends on that row alone, so normalising a block of whole rows is normalising the matrix
  and reading the block.
-/
import Idealize.ShloMosaic.PureOps.Ideal
import Idealize.ShloMosaic.Lib.ValueIdx

noncomputable section

open scoped BigOperators

namespace Cert.RowNormalize

open Idealize.ShloMosaic Idealize.ShloMosaic.ValueIdx

/-- The divisor made of a row sum `r`: one where `r` is exactly zero, `r` itself elsewhere. The zero and the one are
    kept as their single-precision words. -/
def guard (r : EReal) : EReal :=
  Scalar.select (Ideal.cmp .oeq r (Ideal.ofBits .f32 0x00000000#32)) (Ideal.ofBits .f32 0x3F800000#32) r

/-- The 8192 × 8192 matrix `X` with every row divided by its guarded sum. -/
def rowNormalize (X : (⟨2, ![8192, 8192]⟩ : Shape).Idx → EReal) : (⟨2, ![8192, 8192]⟩ : Shape).Idx → EReal :=
  fun i => Ideal.div (X i) (guard (∑ k : Fin 8192, X (ix2 (i 0) k)))

/-- A block of 128 whole rows, each divided by its guarded sum. -/
def blockNormalize (P : (⟨2, ![128, 8192]⟩ : Shape).Idx → EReal) : (⟨2, ![128, 8192]⟩ : Shape).Idx → EReal :=
  fun y => Ideal.div (P y) (guard (∑ k : Fin 8192, P (ix2 (y 0) k)))

/-- NORMALISING A BLOCK OF WHOLE ROWS IS NORMALISING THE MATRIX AND READING THE BLOCK: if `B` is rows
    `128·r … 128·r + 127` of `X` (entry `x` of `B` is entry `i` of `X` whenever `i`'s row is `128·r` plus `x`'s and the
    columns agree), then the normalised block at `j` is the normalised matrix at the entry `i` over `j`: the row of
    `i` is wholly inside the block, so the two row sums run over the same entries. -/
theorem blockNormalize_of_rows (X : (⟨2, ![8192, 8192]⟩ : Shape).Idx → EReal)
    (B : (⟨2, ![128, 8192]⟩ : Shape).Idx → EReal) (r : ℕ)
    (hB : ∀ (x : (⟨2, ![128, 8192]⟩ : Shape).Idx) (i : (⟨2, ![8192, 8192]⟩ : Shape).Idx),
      (i 0).val = 128 * r + (x 0).val → (i 1).val = (x 1).val → B x = X i)
    (j : (⟨2, ![128, 8192]⟩ : Shape).Idx) (i : (⟨2, ![8192, 8192]⟩ : Shape).Idx)
    (h0 : (i 0).val = 128 * r + (j 0).val) (h1 : (i 1).val = (j 1).val) :
    blockNormalize B j = rowNormalize X i := by
  unfold blockNormalize rowNormalize
  rw [hB j i h0 h1]
  refine congrArg (fun s => Ideal.div (X i) (guard s)) (Finset.sum_congr rfl fun k _ => hB _ _ ?_ ?_)
  · exact h0
  · rfl

end Cert.RowNormalize

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.KernelBlock.lean ====
/-
  What the kernel's body leaves in its output block, at the ideal values: the input block of 128 whole rows with every
  entry divided by the guarded sum of its row.

  The body sums the block along its rows, keeps the 128 sums as a column, replaces a sum that is exactly zero by one,
  spreads the column back over the 8192 lanes and divides. Read at the entry (p, q) that is the block's entry divided
  by the guarded sum over `k` of the block's entries (p, k).
-/
import proofs.«132388_j21320217658127_2_alg».proof.Proof.Gen.KernelIdeal.Value
import proofs.«132388_j21320217658127_2_alg».proof.Proof.RowNormalize
import proofs.«132388_j21320217658127_2_alg».proof.Proof.LibRowSums
import Idealize.ShloMosaic.Lib.Pipeline.Value
import Idealize.ShloMosaic.PureOps.Ideal.Laws

noncomputable section

open scoped BigOperators

namespace Cert.KernelIdeal.Hand

open Cert.KernelIdeal Cert.KernelIdeal.Gen Cert.KernelIdeal.Value Idealize.ShloMosaic Idealize.ShloMosaic.ValueIdx
open Cert.RowNormalize

/-- The lane sum of the block, read at row `p`: the sum over `k` of the block's entries (p, k). -/
theorem rowSum_apply (P0 : Vec Ideal S128x8192 .f32) (p : Fin 128) :
    multiReduction (F := Ideal) .add [1] S128 (shapeCast S128x8192 P0 shapeCasts_S128x8192_S128x8192) 0x00000000#32
        reduces_S128x8192_S128 (.inl rfl) rfl (ix1 p)
      = ∑ k : Fin 8192, P0 (ix2 p k) := by
  refine (Cert.RowSums.multiReduction_add_rows_apply (a := 128) (b := 8192) _ reduces_S128x8192_S128 (.inl rfl) rfl p).trans ?_
  rw [shapeCast_self]

/-- THE BLOCK THE BODY LEAVES: the one store's value over the loaded block `P0` is `P0` with every row divided by its
    guarded sum. -/
theorem block_eq (P0 : Vec Ideal S128x8192 .f32) :
    (View.canon [⟨r0_0, k0_pay1 P0⟩] : Vec Ideal S128x8192 .f32) = blockNormalize P0 := by
  funext y
  rw [canon1_eq P0 y]
  obtain ⟨p, q, rfl⟩ : ∃ (p : Fin 128) (q : Fin 8192), y = ix2 p q := ⟨y 0, y 1, eq_ix2 y⟩
  have h0 : ix1_0 (ix2 p q) = ix2 p q :=
    funext fun a => Fin.ext (by match a with | ⟨0, _⟩ => rfl | ⟨1, _⟩ => rfl)
  have h1 : ix1_1 (ix2 p q) = ix1 p := funext fun a => Fin.ext (by match a with | ⟨0, _⟩ => rfl)
  have h2 : ix1_2 (ix2 p q) = ix1 p := funext fun a => Fin.ext (by match a with | ⟨0, _⟩ => rfl)
  show Ideal.div (P0 (ix1_0 (ix2 p q)))
      (Scalar.select (Ideal.cmp .oeq
        (multiReduction (F := Ideal) .add [1] S128 (shapeCast S128x8192 P0 shapeCasts_S128x8192_S128x8192) 0x00000000#32
          reduces_S128x8192_S128 (.inl rfl) rfl (ix1_1 (ix2 p q))) (Ideal.ofBits .f32 0x00000000#32))
        (Ideal.ofBits .f32 0x3F800000#32)
        (multiReduction (F := Ideal) .add [1] S128 (shapeCast S128x8192 P0 shapeCasts_S128x8192_S128x8192) 0x00000000#32
          reduces_S128x8192_S128 (.inl rfl) rfl (ix1_2 (ix2 p q))))
    = Ideal.div (P0 (ix2 p q)) (guard (∑ k : Fin 8192, P0 (ix2 p k)))
  rw [h0, h1, h2, rowSum_apply P0 p]
  rfl

end Cert.KernelIdeal.Hand

end
-- ==== Proof.KernelArray.lean ====
/-
  From the blocks to the array: after the kernel's 64 grid points the result array is the operand matrix with every
  row divided by its guarded sum.

  Grid point `t` fetches rows `128·t … 128·t + 127` of the operand, all 8192 columns, and writes back the same rows of
  the result. A row's divisor depends on that row alone and the row lies wholly inside its block, so what point `t`
  writes back is block `t` of the row-normalised operand; the 64 blocks tile the 8192 rows, so the whole result array is
  the row-normalised operand.
-/
import proofs.«132388_j21320217658127_2_alg».proof.Proof.Gen.KernelIdeal.Value
import proofs.«132388_j21320217658127_2_alg».proof.Proof.KernelBlock
import Idealize.ShloMosaic.Lib.Pipeline.Value

noncomputable section

open scoped BigOperators

namespace Cert.KernelIdeal.Hand

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)
open Cert.RowNormalize

variable (m : (ℓ : Loc nD τ sig) → Buf (Elt Ideal) ℓ) (ρ : Dev nD → PrngReg)

theorem origin : (![0, 0] : Fin 2 → Nat) = fun _ => 0 := funext fun a => by fin_cases a <;> rfl

/-- The two windows' index maps over the grid: point `t` sits at block row `t`, block column 0, for the operand and
    for the result alike. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Block `t` of any matrix `X` in the operand's place, read through the operand's window: rows
    `128·t … 128·t + 127` of `X`, all columns. -/
theorem read_operand_block (X : S8192x8192.Idx → EReal) (t : Fin cfg0.N) (x : S128x8192.Idx) (i : S8192x8192.Idx)
    (h0 : (i 0).val = 128 * t.val + (x 0).val) (h1 : (i 1).val = (x 1).val) :
    (((cfg0.win 0).blk t).view.read (Elt Ideal) X : S128x8192.Idx → EReal) x = X i := by
  obtain ⟨e0, e1, -, -⟩ := block_index t
  rw [View.read_apply]
  show X _ = X i
  refine congrArg X (funext fun a => Fin.ext ?_)
  match a with
  | ⟨0, _⟩ => show win0_0.index t (0 : Fin 2) * 128 + 1 * (x 0).val = (i 0).val; rw [e0, h0]; omega
  | ⟨1, _⟩ => show win0_0.index t (1 : Fin 2) * 8192 + 1 * (x 1).val = (i 1).val; rw [e1, h1]; omega

/-- What the body leaves of block `t` of any matrix `X` in the operand's place, as written back: block `t` of the
    row-normalised `X`. The rows of the block are whole rows of `X`, so their guarded sums are `X`'s. -/
theorem written_block (X : S8192x8192.Idx → EReal) (t : Fin cfg0.N) :
    (cfg0.win 1).cut (grid0.coords t) (out0_1 (((cfg0.win 0).blk t).view.read (Elt Ideal) X))
      = ((cfg0.win 1).blk t).view.read (Elt Ideal) (rowNormalize X) := by
  unfold out0_1
  simp only [View.ld_unit_zero (S := S128x8192) origin]
  rw [block_eq]
  obtain ⟨-, -, e2, e3⟩ := block_index t
  funext j
  rw [View.read_apply]
  show _ = rowNormalize X (((cfg0.win 1).blk t).view.emb j)
  refine blockNormalize_of_rows X _ t.val (fun x i h0 h1 => read_operand_block X t x i h0 h1) _ _ ?_ ?_
  · show win0_1.index t (0 : Fin 2) * 128 + 1 * (j 0).val = 128 * t.val + (j 0).val
    rw [e2]; omega
  · show win0_1.index t (1 : Fin 2) * 8192 + 1 * (j 1).val = (j 1).val
    rw [e3]; omega

/-- WHAT POINT `t` WRITES BACK is block `t` of the row-normalised operand (the operand as the region finds it). -/
theorem flushed_eq (c : Dev nD) (t : Fin cfg0.N) :
    (dats m 0 c).flushed 1 t
      = ((cfg0.win 1).blk t).view.read (Elt Ideal) (rowNormalize (V m c main_v38 : S8192x8192.Idx → EReal)) := by
  show (cfg0.win 1).cut (grid0.coords t) ((dats m 0 c).after 1 t) = _
  rw [after0_1]
  unfold iblk
  exact written_block _ t

/-- An index of the array is in point `t`'s block iff each coordinate is in the block's range on its axis. -/
theorem mem_block (t : Fin cfg0.N) (i : S8192x8192.Idx) :
    i ∈ ((cfg0.win 1).blk t).view.set ↔ ∀ a : Fin 2, win0_1.index t a * S128x8192.size a ≤ (i a).val
      ∧ (i a).val < win0_1.index t a * S128x8192.size a + S128x8192.size a := by
  show i ∈ ((View.whole main_v39).slice (win0_1.rect t)).set ↔ _
  rw [View.set_slice_whole, Rect.mem_set_unit]
  exact Iff.rfl

/-- Every entry of the result lies in the block of the point that owns its row: row `r` belongs to point `r / 128`. -/
theorem covered (i : S8192x8192.Idx) :
    ∃ t : Fin cfg0.N, (cfg0.win 1).flush t = true ∧ i ∈ ((cfg0.win 1).blk t).view.set := by
  have hN : grid0.N = 64 := N_0
  have hi0 : (i 0).val < 8192 := (i 0).isLt
  have hi1 : (i 1).val < 8192 := (i 1).isLt
  let t : Fin cfg0.N := ⟨(i 0).val / 128, by show (i 0).val / 128 < grid0.N; rw [hN]; omega⟩
  obtain ⟨-, -, e2, e3⟩ := block_index t
  have ht : t.val = (i 0).val / 128 := rfl
  refine ⟨t, flush0_1 t, ?_⟩
  rw [mem_block]
  intro a
  match a with
  | ⟨0, _⟩ =>
    show win0_1.index t (0 : Fin 2) * 128 ≤ (i 0).val ∧ (i 0).val < win0_1.index t (0 : Fin 2) * 128 + 128
    rw [e2, ht]; omega
  | ⟨1, _⟩ =>
    show win0_1.index t (1 : Fin 2) * 8192 ≤ (i 1).val ∧ (i 1).val < win0_1.index t (1 : Fin 2) * 8192 + 8192
    rw [e3]; omega

/-- THE RESULT ARRAY after the run: the operand matrix, as the region finds it, row-normalised. -/
theorem final_eq (c : Dev nD) :
    (dats m 0 c).arrAt 1 cfg0.N = rowNormalize (V m c main_v38 : S8192x8192.Idx → EReal) :=
  (dats m 0 c).arrAt_eq_of_cover 1 (rowNormalize (V m c main_v38 : S8192x8192.Idx → EReal))
    (fun t _ => flushed_eq m c t) covered

/-- The kernel's run, read: the result array at the row-normalised operand, the arguments unchanged. -/
theorem run : θ_run defs (onTc (τ := τ) (main (F := Ideal))) ⟨m, fun _ => 0, ρ⟩ fun r => ∀ c : Dev nD,
      r.2.mem ((c : Thread nD τ).loc main_v39) = rowNormalize (V m c main_v38 : S8192x8192.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_eq m c), (h c).2⟩)
    (Cert.KernelIdeal.Value.run_blocks m ρ)

end Cert.KernelIdeal.Hand

end
-- ==== Proof.KernelHost.lean ====
/-
  The matrix the kernel normalises, as a function of the arguments.

  Before the kernel is launched the program computes the blend weight `α = 1 / (1 + e^(−γ))` from the scalar `γ`,
  scales the first edge list's values by `α` and the second's by `1 − α`, turns a negative row or column number `n`
  into `n + 8192`, pairs rows with columns, and adds the scaled values of the first list and then of the second into
  ONE 8192 × 8192 matrix of zeros at the positions the pairs name. That matrix is what the kernel's grid reads.
-/
import proofs.«132388_j21320217658127_2_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem
open Idealize.ShloMosaic.StableHlo

/-- The blend weight `1 / (1 + e^(−γ))` of the scalar `γ`, in the program's operations. -/
def gate (x6 : FVec Ideal S1 .f32) : FVec Ideal S_ .f32 :=
  Host.divf (constant (F := Ideal) S_ .f32 0x3F800000#32)
    (addf (constant (F := Ideal) S_ .f32 0x3F800000#32) (Host.exp (Host.negf (shapeCast S_ x6 shapeCasts_S1_S_))))

/-- A list of row or column numbers with the negative ones moved up by the matrix's extent. -/
def wrapped (x : IVec S262144 32) : IVec S262144 32 :=
  select (cmpi .slt x (broadcastInDim S262144 ![] bcast_S_S262144 (constantI S_ 32 0#32)))
    (addi x (broadcastInDim S262144 ![] bcast_S_S262144 (constantI S_ 32 8192#32))) x

/-- The edge list's positions: the wrapped row numbers beside the wrapped column numbers. -/
def edgePairs (r c : IVec S262144 32) : IVec S262144x2 32 :=
  concatenate S262144x2 1
    [⟨S262144x1, broadcastInDim S262144x1 ![0] bcast_S262144_S262144x1_0 (wrapped r)⟩,
     ⟨S262144x1, broadcastInDim S262144x1 ![0] bcast_S262144_S262144x1_0 (wrapped c)⟩]
    concatenates_S262144x1_S262144x1_S262144x2_d1

/-- The matrix the kernel reads: the first list's values scaled by the weight and the second's by one minus the
    weight, added one list after the other into one matrix of zeros. -/
def fused (x0 x1 : IVec S262144 32) (x2 : FVec Ideal S262144 .f32) (x3 x4 : IVec S262144 32)
    (x5 : FVec Ideal S262144 .f32) (x6 : FVec Ideal S1 .f32) : FVec Ideal S8192x8192 .f32 :=
  Host.scatterAdd scatter_S8192x8192_S262144x2_S262144_n_01_01_1
    (Host.scatterAdd scatter_S8192x8192_S262144x2_S262144_n_01_01_1
      (broadcastInDim S8192x8192 ![] bcast_S_S8192x8192 (constant (F := Ideal) S_ .f32 0x00000000#32))
      (edgePairs x0 x1)
      (mulf (broadcastInDim S262144 ![] bcast_S_S262144 (gate x6)) x2))
    (edgePairs x3 x4)
    (mulf (broadcastInDim S262144 ![] bcast_S_S262144 (subf (constant (F := Ideal) S_ .f32 0x3F800000#32) (gate x6))) x5)

variable (m : (ℓ : Loc nD τ sig) → Buf (Elt Ideal) ℓ)

/-- THE KERNEL'S OPERAND as the region finds it is `fused` of the arguments' launch contents. -/
theorem operand_eq (c : Dev nD) :
    (V m c main_v38 : S8192x8192.Idx → EReal)
      = fused (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  dsimp only [Gen.V, Gen.hostOps0]
  after_results_simp
  rfl

end Cert.KernelIdeal.Hand

end
-- ==== Proof.Reference.lean ====
/-
  The reference's result is its blended matrix with every row divided by its guarded sum.

  After blending the two scattered matrices the reference sums each row, keeps the sums as a column, replaces a sum
  that is exactly zero by one, spreads the column over the row and divides. Read at an entry that is the blended
  matrix's entry divided by the guarded sum of its row: the same row normalisation the kernel applies block by block.
-/
import proofs.«132388_j21320217658127_2_alg».proof.Proof.Gen.ReferenceIdeal.Read
import proofs.«132388_j21320217658127_2_alg».proof.Proof.RowNormalize
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic
open Idealize.ShloMosaic.ValueIdx Cert.RowNormalize

/-- THE REFERENCE'S RESULT is the row normalisation of its blended matrix (the stage `%40`). -/
theorem result_eq (x0 x1 : IVec S262144 32) (x2 : FVec Ideal S262144 .f32) (x3 x4 : IVec S262144 32)
    (x5 : FVec Ideal S262144 .f32) (x6 : FVec Ideal S1 .f32) :
    val_main_v48 (F := Ideal) x0 x1 x2 x3 x4 x5 x6
      = rowNormalize (val_main_v40 (F := Ideal) x0 x1 x2 x3 x4 x5 x6) := by
  funext i
  rw [val_main_v48_apply, val_main_v47_apply, val_main_v46_apply, val_main_v44_apply, val_main_v42_apply,
    val_main_v41_apply, val_main_v45_apply, val_main_v43_apply, val_main_cst_13_apply, val_main_cst_12_apply,
    val_main_cst_11_apply]
  generalize val_main_v40 (F := Ideal) x0 x1 x2 x3 x4 x5 x6 = Y
  have hrow : (Ideal.ofBits .f32 0x00000000#32 : EReal)
        + ∑ k : Fin 8192, Y (idx_main_v41 (idx_main_v42 (idx_main_v47 i)) k)
      = ∑ k : Fin 8192, Y (ix2 (i 0) k) := by
    rw [Ideal.ofBits_zero_f32, zero_add]
    exact Finset.sum_congr rfl fun k _ => congrArg Y (funext fun a => Fin.ext (by
      match a with
      | ⟨0, _⟩ => rfl
      | ⟨1, _⟩ => rfl))
  show Ideal.div (Y i) (Scalar.select (Ideal.cmp .oeq
      ((Ideal.ofBits .f32 0x00000000#32 : EReal) + ∑ k : Fin 8192, Y (idx_main_v41 (idx_main_v42 (idx_main_v47 i)) k))
      (Ideal.ofBits .f32 0x00000000#32)) (Ideal.ofBits .f32 0x3F800000#32)
      ((Ideal.ofBits .f32 0x00000000#32 : EReal) + ∑ k : Fin 8192, Y (idx_main_v41 (idx_main_v42 (idx_main_v47 i)) k)))
    = Ideal.div (Y i) (guard (∑ k : Fin 8192, Y (ix2 (i 0) k)))
  rw [hrow]
  rfl

end Cert.ReferenceIdeal.Hand

end
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.LibScatterBlend.lean ====
/-
  A general lemma file: scaling the updates of an accumulating scatter is scaling its result.

  An accumulating scatter into an array of zeros leaves at each position the sum of the updates whose index names
  that position (an update whose index falls outside the array is dropped). Two such scatters, of updates `f` through
  one index list and of updates `g` through another, blended as `a · (scatter of f) + b · (scatter of g)`, give the same
  array as scattering `a · f` and then `b · g` into ONE array of zeros: at every position both are
  `a · Σ f + b · Σ g` over the updates landing there. Over the extended reals this is distributivity of a product
  over a finite sum, which needs the scalars and the updates to be real numbers (at an infinity a sum may absorb a
  term); nothing is asked of the index lists. The blend weight of a learnable gate, `1 / (1 + e^(−γ))` at a real `γ`,
  is such a real scalar.
-/
import Idealize.ShloMosaic.PureOps.Ideal
import proofs.«132388_j21320217658127_2_alg».proof.Proof.LibFiniteReals

noncomputable section

open scoped BigOperators

namespace Cert.ScatterBlend

open Idealize.ShloMosaic Cert.FiniteReals

/-- Two sums of scaled real terms, the second added onto the first started from zero, are the blend of the two plain
    sums each started from zero. -/
theorem blend_sums {ι κ : Type*} (S : Finset ι) (T : Finset κ) {a b : EReal} (ha : IsReal a) (hb : IsReal b)
    (f : ι → EReal) (g : κ → EReal) (hf : ∀ j, IsReal (f j)) (hg : ∀ j, IsReal (g j)) :
    (0 + ∑ j ∈ S, a * f j) + ∑ j ∈ T, b * g j = a * (0 + ∑ j ∈ S, f j) + b * (0 + ∑ j ∈ T, g j) := by
  obtain ⟨a, rfl⟩ := ha
  obtain ⟨b, rfl⟩ := hb
  choose f' hf' using hf
  choose g' hg' using hg
  obtain rfl : f = fun j => ((f' j : ℝ) : EReal) := funext hf'
  obtain rfl : g = fun j => ((g' j : ℝ) : EReal) := funext hg'
  simp only [zero_add, ← EReal.coe_mul, coe_sum, ← EReal.coe_add]
  rw [Finset.mul_sum, Finset.mul_sum]

/-- SCALING COMMUTES WITH THE SCATTER: into an array `z` of zeros, scattering the updates `a · vs` through `idxS` and
    then `b · vt` through `idxT` gives, at every position, `a` times the scatter of `vs` plus `b` times the scatter of
    `vt` — for real scalars and real updates, any dimension numbers and any index lists. -/
theorem hostScatterAdd_blend {s si su : Shape} (d : ScatterDims s si su) {w : Nat} (z : s.Idx → EReal)
    (hz : ∀ i, z i = 0) (idxS idxT : IVec si w) {a b : EReal} (ha : IsReal a) (hb : IsReal b)
    (vs vt : su.Idx → EReal) (hvs : ∀ j, IsReal (vs j)) (hvt : ∀ j, IsReal (vt j)) (i : s.Idx) :
    Ideal.hostScatterAdd d (Ideal.hostScatterAdd d z idxS fun j => a * vs j) idxT (fun j => b * vt j) i
      = a * Ideal.hostScatterAdd d z idxS vs i + b * Ideal.hostScatterAdd d z idxT vt i := by
  unfold Ideal.hostScatterAdd
  rw [hz i]
  exact blend_sums _ _ ha hb vs vt hvs hvt

/-- The gate `1 / (1 + e^(−x))` of a real number is a real number. -/
theorem isReal_gate {x : EReal} (hx : IsReal x) : IsReal (Ideal.div 1 (1 + Ideal.exp (-x))) := by
  obtain ⟨r, rfl⟩ := hx
  exact ⟨_, Ideal.logistic_coe r⟩

end Cert.ScatterBlend

end
-- ==== Proof.Blend.lean ====
/-
  The matrix the kernel normalises is the matrix the reference normalises.

  The kernel scales the edge values first — the first list's by the weight `α`, the second's by `1 − α` — and adds
  both lists into ONE matrix of zeros; the reference adds each list's plain values into a matrix of its own and blends
  the two matrices, `α · As + (1 − α) · At`. At every position both are `α · Σ vₛ + (1 − α) · Σ vₜ` over the edges that land
  there: a product distributes over a finite sum of real numbers. The weight is real because `γ` is, the edge values are
  real by the precondition; the edge positions are the same list of pairs on both sides and are never opened.
-/
import proofs.«132388_j21320217658127_2_alg».proof.Proof.KernelHost
import proofs.«132388_j21320217658127_2_alg».proof.Proof.Gen.ReferenceIdeal.Read
import proofs.«132388_j21320217658127_2_alg».proof.Proof.LibScatterBlend
import Idealize.ShloMosaic.Lib.IdealHost

noncomputable section

open scoped BigOperators

namespace Cert.Proof.Blend

open Idealize.ShloMosaic Idealize.ShloMosaic.ValueIdx Cert.FiniteReals Cert.ScatterBlend
open Cert.KernelIdeal.Hand (gate wrapped edgePairs fused)
open Cert.ReferenceIdeal.Read

/-- The reference computes the same weight from `γ`, -/
theorem weight_eq (x6 : FVec Ideal Cert.ReferenceIdeal.S1 .f32) : val_main_v34 (F := Ideal) x6 = gate x6 := rfl

/-- pairs the first edge list's rows and columns in the same way, -/
theorem pairs_s_eq (x0 x1 : IVec Cert.ReferenceIdeal.S262144 32) :
    val_main_v13 (F := Ideal) x0 x1 = edgePairs x0 x1 := rfl

/-- and the second list's. -/
theorem pairs_t_eq (x3 x4 : IVec Cert.ReferenceIdeal.S262144 32) :
    val_main_v28 (F := Ideal) x3 x4 = edgePairs x3 x4 := rfl

/-- The weight of a real `γ` is a real number. -/
theorem isReal_weight (x6 : FVec Ideal Cert.KernelIdeal.S1 .f32) (h6 : ∀ j, IsReal (x6 j)) : IsReal (gate x6 ix0) := by
  show IsReal (Ideal.div (Ideal.ofBits .f32 0x3F800000#32)
    (Ideal.ofBits .f32 0x3F800000#32 + Ideal.exp (-(x6 _))))
  rw [Ideal.ofBits_one_f32]
  exact isReal_gate (h6 _)

/-- THE TWO MATRICES AGREE, entry by entry, on real edge values and a real `γ`. -/
theorem fused_eq (x0 x1 : IVec Cert.KernelIdeal.S262144 32) (x2 : FVec Ideal Cert.KernelIdeal.S262144 .f32)
    (x3 x4 : IVec Cert.KernelIdeal.S262144 32) (x5 : FVec Ideal Cert.KernelIdeal.S262144 .f32)
    (x6 : FVec Ideal Cert.KernelIdeal.S1 .f32)
    (h2 : ∀ j, IsReal (x2 j)) (h5 : ∀ j, IsReal (x5 j)) (h6 : ∀ j, IsReal (x6 j)) :
    fused x0 x1 x2 x3 x4 x5 x6 = val_main_v40 (F := Ideal) x0 x1 x2 x3 x4 x5 x6 := by
  funext i
  rw [val_main_v40_apply, val_main_v36_apply, val_main_v39_apply, val_main_v35_apply, val_main_v38_apply]
  have ha : IsReal (gate x6 ix0) := isReal_weight x6 h6
  have hb : IsReal (Ideal.ofBits .f32 0x3F800000#32 - gate x6 ix0) := by
    rw [Ideal.ofBits_one_f32]; exact isReal_one.sub ha
  have hz : ∀ p : Cert.KernelIdeal.S8192x8192.Idx,
      (broadcastInDim Cert.KernelIdeal.S8192x8192 ![] Cert.KernelIdeal.Facts₀.bcast_S_S8192x8192
        (constant (F := Ideal) Cert.KernelIdeal.S_ .f32 0x00000000#32) : Cert.KernelIdeal.S8192x8192.Idx → EReal) p = 0 :=
    fun p => Ideal.ofBits_zero_f32
  have hus : (mulf (broadcastInDim Cert.KernelIdeal.S262144 ![] Cert.KernelIdeal.Facts₀.bcast_S_S262144 (gate x6)) x2
      : Cert.KernelIdeal.S262144.Idx → EReal) = fun j => gate x6 ix0 * x2 j :=
    funext fun j => by rw [mulf_apply, broadcastInDim_scalar_apply]
  have hut : (mulf (broadcastInDim Cert.KernelIdeal.S262144 ![] Cert.KernelIdeal.Facts₀.bcast_S_S262144
        (subf (constant (F := Ideal) Cert.KernelIdeal.S_ .f32 0x3F800000#32) (gate x6))) x5
      : Cert.KernelIdeal.S262144.Idx → EReal) = fun j => (Ideal.ofBits .f32 0x3F800000#32 - gate x6 ix0) * x5 j :=
    funext fun j => by rw [mulf_apply, broadcastInDim_scalar_apply]; rfl
  have hL := hostScatterAdd_blend Cert.KernelIdeal.scatter_S8192x8192_S262144x2_S262144_n_01_01_1 _ hz
    (edgePairs x0 x1) (edgePairs x3 x4) ha hb x2 x5 h2 h5 i
  rw [← hus, ← hut] at hL
  exact hL

end Cert.Proof.Blend

end
-- ==== Proof.LibFiniteInputs.lean ====
/-
  A general lemma file: the printed precondition "every entry of a float array is finite", read back.

  `jnp.all(jnp.abs(x) < inf)` prints as a reduction by `and`, from the constant 1, of the comparison of `|x|` with the
  splat of the word 0x7F800000 (single precision's +inf). At the ideal values that word is the top element, the
  comparison is the order of the extended reals, and an extended real whose absolute value is below the top is a real
  number. So the reduction being 1 says every entry of `x` is a real number — for any shape and any reduced axes.
-/
import Idealize.ShloMosaic.Lib.ReduceAll
import Idealize.ShloMosaic.Lib.ValueIdx
import proofs.«132388_j21320217658127_2_alg».proof.Proof.LibFiniteReals

noncomputable section

namespace Cert.FiniteInputs

open Idealize.ShloMosaic Idealize.ShloMosaic.ValueIdx Cert.FiniteReals

/-- Single precision's +inf word is the top extended real. -/
theorem ofBits_inf : Ideal.ofBits .f32 0x7F800000#32 = ⊤ := by
  simp [Ideal.ofBits, Ideal.ieee]

/-- An extended real whose absolute value is below the top is a real number. -/
theorem isReal_of_abs_lt_top (x : EReal) (h : max x (-x) < ⊤) : IsReal x := by
  induction x using EReal.rec with
  | bot => simp at h
  | top => simp at h
  | coe r => exact ⟨r, rfl⟩

/-- The scalar shape has one index. -/
instance : Subsingleton (⟨0, ![]⟩ : Shape).Idx := ⟨fun a b => funext fun d => d.elim0⟩

/-- THE PRINTED `jnp.all(jnp.abs(x) < inf)` being 1 says every entry of `x` is a real number. -/
theorem isReal_of_all_finite {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) h hu ix0 = 1#1) (i : s.Idx) : IsReal (x i) := by
  have hi := Host.reduce_andi_all _ _ h hu ix0 e i
  have hc : Ideal.cmp .olt (max (x i) (-(x i))) (Ideal.ofBits .f32 0x7F800000#32) = 1#1 := hi
  refine isReal_of_abs_lt_top (x i) ?_
  rw [← ofBits_inf]
  by_contra hn
  simp [Ideal.cmp, hn] at hc

end Cert.FiniteInputs

end
-- ==== Proof.Finite.lean ====
/-
  The precondition, read back: the two lists of edge values and the scalar `γ` hold real numbers.

  The precondition is the conjunction of three tests "every entry has absolute value below +inf", one per float
  argument; each test being 1 says every entry of that argument is a real number.
-/
import proofs.«132388_j21320217658127_2_alg».proof.Pre_finite_inputs
import proofs.«132388_j21320217658127_2_alg».proof.Proof.Gen.Pre_finite_inputs
import proofs.«132388_j21320217658127_2_alg».proof.Proof.LibFiniteInputs
import Idealize.ShloMosaic.Lib.Affine

noncomputable section

namespace Cert.Proof.Finite

open Idealize.ShloMosaic Idealize.ShloMosaic.ValueIdx Cert.FiniteReals Cert.FiniteInputs
open Cert.Pre_finite_inputs Cert.Pre_finite_inputs.Facts

/-- Under the precondition every entry of the first list's values, of the second list's values and of `γ` is a real
    number. -/
theorem real_inputs (x0 x1 : IVec S262144 32) (x2 : FVec Ideal S262144 .f32) (x3 x4 : IVec S262144 32)
    (x5 : FVec Ideal S262144 .f32) (x6 : FVec Ideal S1 .f32)
    (h : Cert.Pre_finite_inputs.fn (F := Ideal) x0 x1 x2 x3 x4 x5 x6 = fun _ => 1#1) :
    (∀ j, IsReal (x2 j)) ∧ (∀ j, IsReal (x5 j)) ∧ (∀ j, IsReal (x6 j)) := by
  have h0 := congrFun h ix0
  dsimp only [Cert.Pre_finite_inputs.fn] at h0
  obtain ⟨h01, h3⟩ := IntOp.andi_eq_one.mp h0
  obtain ⟨h1, h2⟩ := IntOp.andi_eq_one.mp h01
  exact ⟨isReal_of_all_finite x2 bcast_S_S262144 reducesTo_S262144_S_d0 h_S_ h1,
    isReal_of_all_finite x5 bcast_S_S262144 reducesTo_S262144_S_d0 h_S_ h2,
    isReal_of_all_finite x6 bcast_S_S1 reducesTo_S1_S_d0 h_S_ h3⟩

end Cert.Proof.Finite

end
-- ==== Proof.lean ====
/-
  Fused adjacency blend and row normalisation: the kernel against its reference, over the extended reals.

  Two edge lists (rows, columns, values) over 8192 nodes and a scalar `γ` are given. With the weight
  `α = 1 / (1 + e^(−γ))`, the reference adds each list's values into a dense 8192 × 8192 matrix of its own, blends them as
  `α · As + (1 − α) · At`, and divides every row by its sum (by one where the sum is exactly zero). The kernel scales
  the edge values by `α` and `1 − α` first, adds both lists into ONE dense matrix, and normalises it 128 whole rows at a
  time over a grid of 64 points.

  The two dense matrices agree entry by entry because a product distributes over a finite sum of real numbers — the
  precondition makes the edge values and `γ` real (Proof/Blend.lean, Proof/Finite.lean). A row's divisor depends on that
  row alone and each block holds whole rows, so normalising block by block is normalising the matrix
  (Proof/KernelBlock.lean, Proof/KernelArray.lean), which is what the reference does in one piece
  (Proof/Reference.lean). The three programs' runs and frames are the generated modules'; the idealised kernel is the
  kernel's own text read at the ideal values, so nothing is owed for it.
-/
import proofs.«132388_j21320217658127_2_alg».proof.Defs
import proofs.«132388_j21320217658127_2_alg».proof.Proof.Gen.Kernel
import proofs.«132388_j21320217658127_2_alg».proof.Proof.Gen.Kernel.Skeleton
import proofs.«132388_j21320217658127_2_alg».proof.Proof.Gen.Kernel.Launch
import proofs.«132388_j21320217658127_2_alg».proof.Proof.Gen.Kernel.Points
import proofs.«132388_j21320217658127_2_alg».proof.Proof.Gen.Kernel.Frame
import proofs.«132388_j21320217658127_2_alg».proof.Proof.Gen.KernelIdeal
import proofs.«132388_j21320217658127_2_alg».proof.Proof.Gen.KernelIdeal.Skeleton
import proofs.«132388_j21320217658127_2_alg».proof.Proof.Gen.KernelIdeal.Launch
import proofs.«132388_j21320217658127_2_alg».proof.Proof.Gen.KernelIdeal.Points
import proofs.«132388_j21320217658127_2_alg».proof.Proof.Gen.KernelIdeal.Frame
import proofs.«132388_j21320217658127_2_alg».proof.Proof.Gen.ReferenceIdeal
import proofs.«132388_j21320217658127_2_alg».proof.Proof.Gen.KernelIdeal.Value
import proofs.«132388_j21320217658127_2_alg».proof.Proof.Gen.ReferenceIdeal.Run
import proofs.«132388_j21320217658127_2_alg».proof.Proof.Gen.ReferenceIdeal.Read
import proofs.«132388_j21320217658127_2_alg».proof.Proof.Gen.Pre_finite_inputs
import proofs.«132388_j21320217658127_2_alg».proof.Proof.KernelArray
import proofs.«132388_j21320217658127_2_alg».proof.Proof.KernelHost
import proofs.«132388_j21320217658127_2_alg».proof.Proof.Reference
import proofs.«132388_j21320217658127_2_alg».proof.Proof.Blend
import proofs.«132388_j21320217658127_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values, -/
theorem frame_kernelIdeal : Cert.frame_KernelIdeal := fun m ρ _ => Cert.KernelIdeal.Gen.frame m ρ

/-- and the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealised kernel is the kernel's own text: no operation was rewritten. -/
theorem preserves : Cert.preserves_Kernel_KernelIdeal := trivial

/-- THE TWO RESULTS AGREE. The kernel's result array is the row normalisation of the fused matrix, the reference's is
    the row normalisation of the blended matrix, and on real edge values and a real `γ` the two matrices are one. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨h2, h5, h6⟩ := Cert.Proof.Finite.real_inputs _ _ _ _ _ _ _ (hpre c)
  rw [Cert.ReferenceIdeal.Read.val_main_v48_eq, a0, a1, a2, a3, a4, a5, a6, Cert.ReferenceIdeal.Hand.result_eq,
    Cert.KernelIdeal.Hand.operand_eq, Cert.Proof.Blend.fused_eq _ _ _ _ _ _ _ h2 h5 h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
